-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .hbm, ⟨6, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x128, .f32⟩
  | .local _ .vmem, ⟨6, _⟩ => ⟨S200x128, .f32⟩
  | .local _ .vmem, ⟨7, _⟩ => ⟨S200x10000, .f32⟩
  | .local _ .vmem, ⟨8, _⟩ => ⟨S200x10000, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S200x128_S200x128_0_0 : ∀ a, (![0, 0] : Fin 2 → Nat) a + S200x128.size a ≤ S200x128.size a
  h_S200x128 : 0 < S200x128.numel
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .f32 = 32 ∨ (Rect.block (s := S10000x10000) S200x10000.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S200x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S200x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What each case of the body leaves behind, as values.

  At the grid's first point the body stores the hidden features into the carried scratch (one store covering the whole
  scratch, of the first payload of the three resident blocks), reads the scratch back, and stores the output block (the
  second payload of the adjacency block and of what it has just written). At every later point it stores nothing into
  the scratch and the output block is the second payload of the adjacency block and of what the scratch already held.
  At every point the second output's block is the adjacency block itself. Each statement holds for any float instance:
  a load of a whole buffer reads its contents, and a single store covering a whole buffer leaves its payload.
-/
import proofs.«111842_g5643587026968_cont_9to1_m_404_6_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

variable (c : Dev nD) (i : grid0.Coords)
  (a1 : Memref sig .tc .vmem S10000x128 .f32) (h1 : a1.IsWhole)
  (a2 : Memref sig .tc .vmem S128x128 .f32) (h2 : a2.IsWhole)
  (a3 : Memref sig .tc .vmem S1x128 .f32) (h3 : a3.IsWhole)
  (a4 : Memref sig .tc .vmem S200x10000 .f32) (h4 : a4.IsWhole)
  (a5 : Memref sig .tc .vmem S200x128 .f32) (h5 : a5.IsWhole)
  (a6 : Memref sig .tc .vmem S200x10000 .f32) (h6 : a6.IsWhole)
  (a7 : Memref sig .tc .vmem S10000x128 .bf16) (h7 : a7.IsWhole)
  (x0 : Vec F S10000x128 .f32) (x1 : Vec F S128x128 .f32) (x2 : Vec F S1x128 .f32) (x3 : Vec F S200x10000 .f32)

/-! ## The first point -/

/-- The carried scratch after the first point: the hidden features of the three resident blocks. -/
theorem scratch_first (hc : cond0_0 i) :
    sout0_A_0 c i a1 h1 a2 h2 a3 h3 a4 h4 a5 h5 a6 h6 a7 h7 hc x0 x1 x2 x3 = k0_pay1 x0 x1 x2 := by
  unfold sout0_A_0
  rw [View.read_writes_eq_canon _ _ _ (scover0_A_0 c i a1 h1 a2 h2 a3 h3 a4 h4 a5 h5 a6 h6 a7 h7 hc x0 x1 x2 x3)]
  unfold kernelRun0_A
  dsimp only
  sl_unfold_words
  rw [View.canon_unit_zero (S := S10000x128) hz]
  simp only [View.readAt_eq_ld, h1.read_unread, h2.read_unread, h3.read_unread,
    View.ld_unit_zero (S := S10000x128) hz, View.ld_unit_zero (S := S128x128) hz, View.ld_unit_zero (S := S1x128) hz]

/-- The first output's block after the first point: the aggregation of the adjacency block with the hidden features
    the same point has just stored. -/
theorem out_first (hc : cond0_0 i) :
    out0_A_4 c i a1 h1 a2 h2 a3 h3 a4 h4 a5 h5 a6 h6 a7 h7 hc x0 x1 x2 x3 = k0_pay2 x3 (k0_pay1 x0 x1 x2) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero (S := S200x128) hz, View.readCov_unit_zero (S := S10000x128) _ hz]
  simp only [View.readAt_eq_ld, h1.read_unread, h2.read_unread, h3.read_unread, h4.read_unread,
    View.ld_unit_zero (S := S10000x128) hz, View.ld_unit_zero (S := S128x128) hz, View.ld_unit_zero (S := S1x128) hz,
    View.ld_unit_zero (S := S200x10000) hz]

/-- The second output's block after the first point: the adjacency block. -/
theorem copy_first (hc : cond0_0 i) :
    out0_A_5 c i a1 h1 a2 h2 a3 h3 a4 h4 a5 h5 a6 h6 a7 h7 hc x0 x1 x2 x3 = x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero (S := S200x10000) hz]
  simp only [View.readAt_eq_ld, h4.read_unread, View.ld_unit_zero (S := S200x10000) hz]

/-! ## Every later point -/

variable (xs : Vec F S10000x128 .bf16)

/-- The first output's block after a later point: the aggregation of the adjacency block with what the scratch held. -/
theorem out_later (hc : ¬cond0_0 i) :
    out0_B_4 c i a1 h1 a2 h2 a3 h3 a4 h4 a5 h5 a6 h6 a7 h7 hc x0 x1 x2 x3 xs = k0_pay2 x3 xs := by
  unfold out0_B_4
  rw [View.read_writes_eq_canon _ _ _ (cover0_B_4 c i a1 h1 a2 h2 a3 h3 a4 h4 a5 h5 a6 h6 a7 h7 hc x0 x1 x2 x3 xs)]
  unfold kernelRun0_B
  dsimp only
  sl_unfold_words
  rw [View.canon_unit_zero (S := S200x128) hz]
  simp only [View.readAt_eq_ld, h4.read_unread, h7.read_unread,
    View.ld_unit_zero (S := S200x10000) hz, View.ld_unit_zero (S := S10000x128) hz]

/-- The second output's block after a later point: the adjacency block. -/
theorem copy_later (hc : ¬cond0_0 i) :
    out0_B_5 c i a1 h1 a2 h2 a3 h3 a4 h4 a5 h5 a6 h6 a7 h7 hc x0 x1 x2 x3 xs = x3 := by
  unfold out0_B_5
  rw [View.read_writes_eq_canon _ _ _ (cover0_B_5 c i a1 h1 a2 h2 a3 h3 a4 h4 a5 h5 a6 h6 a7 h7 hc x0 x1 x2 x3 xs)]
  unfold kernelRun0_B
  dsimp only
  sl_unfold_words
  rw [View.canon_unit_zero (S := S200x10000) hz]
  simp only [View.readAt_eq_ld, h4.read_unread, View.ld_unit_zero (S := S200x10000) hz]

end Cert.KernelIdeal.Pieces

end
-- ==== Proof.Carry.lean ====
/-
  The carried scratch across the grid, and what every point writes.

  Only the first of the 50 grid points stores into the scratch; every later point leaves it as it found it. So after
  EVERY point the scratch holds the hidden features computed at the first point from the three resident blocks (by
  induction on the point), and therefore every point's first output block is the aggregation of ITS adjacency block
  with those same hidden features, and its second output block is its adjacency block.
-/
import proofs.«111842_g5643587026968_cont_9to1_m_404_6_alg».proof.Proof.Pieces

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The grid's first point. -/
abbrev first : Fin cfg0.N := ⟨0, by rw [show cfg0.N = 50 from N_0]; decide⟩

/-- The hidden features: the first payload of the three resident blocks, as the first point finds them. -/
def hid (c : Dev nD) : Vec F S10000x128 .bf16 :=
  k0_pay1 (iblk m c 0 first) (iblk m c 1 first) (iblk m c 2 first)

/-- After every point the carried scratch holds the hidden features. -/
theorem scratch_eq (c : Dev nD) : ∀ (n : ℕ) (h : n < cfg0.N), (outsAt0 m c n h).2.2 = hid m c
  | 0, h => by
    rw [outsAt0_A m c ⟨0, h⟩ rfl]
    dsimp only
    refine (Pieces.scratch_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩)
      scM0_0 (Memref.isWhole_whole _) (iblk m c 0 ⟨0, h⟩) (iblk m c 1 ⟨0, h⟩) (iblk m c 2 ⟨0, h⟩) (iblk m c 3 ⟨0, h⟩)
      ((hcond0_0 ⟨0, h⟩).mpr rfl)).trans ?_
    rfl
  | n + 1, h => by
    have hN : cfg0.N = 50 := N_0
    have hB : ¬(⟨n + 1, h⟩ : Fin cfg0.N).val % 50 = 0 := by dsimp only; omega
    rw [outsAt0_B m c ⟨n + 1, h⟩ hB]
    dsimp only
    unfold sout0_B_0
    exact scratch_eq c n _

/-- Every point's first output block: the aggregation of its adjacency block with the hidden features. -/
theorem out_eq (c : Dev nD) (t : Fin cfg0.N) :
    (outsAt0 m c t.val t.isLt).1 = k0_pay2 (iblk m c 3 t) (hid m c) := by
  have hN : cfg0.N = 50 := N_0
  by_cases h0 : t.val % 50 = 0
  · have ht : t = first := Fin.ext (by have := t.isLt; show t.val = 0; omega)
    subst ht
    rw [outsAt0_A m c first h0]
    dsimp only
    refine (Pieces.out_first c (grid0.coords first) (ms0_0 first) (hs0_0 first) (ms0_1 first) (hs0_1 first)
      (ms0_2 first) (hs0_2 first) (ms0_3 first) (hs0_3 first) (ms0_4 first) (hs0_4 first) (ms0_5 first) (hs0_5 first)
      scM0_0 (Memref.isWhole_whole _) (iblk m c 0 first) (iblk m c 1 first) (iblk m c 2 first) (iblk m c 3 first)
      ((hcond0_0 first).mpr h0)).trans ?_
    rfl
  · rw [outsAt0_B m c t h0]
    dsimp only
    refine (Pieces.out_later c (grid0.coords t) (ms0_0 t) (hs0_0 t) (ms0_1 t) (hs0_1 t)
      (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t)
      (outsAt0 m c (t.val - 1) (Nat.lt_of_le_of_lt (Nat.sub_le _ _) t.isLt)).2.2
      (fun h => h0 ((hcond0_0 t).mp h))).trans ?_
    rw [scratch_eq m c (t.val - 1) _]

/-- Every point's second output block: its adjacency block. -/
theorem copy_eq (c : Dev nD) (t : Fin cfg0.N) :
    (outsAt0 m c t.val t.isLt).2.1 = iblk m c 3 t := by
  by_cases h0 : t.val % 50 = 0
  · rw [outsAt0_A m c t h0]
    dsimp only
    exact Pieces.copy_first c (grid0.coords t) (ms0_0 t) (hs0_0 t) (ms0_1 t) (hs0_1 t)
      (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t)
      ((hcond0_0 t).mpr h0)
  · rw [outsAt0_B m c t h0]
    dsimp only
    exact Pieces.copy_later c (grid0.coords t) (ms0_0 t) (hs0_0 t) (ms0_1 t) (hs0_1 t)
      (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t)
      (outsAt0 m c (t.val - 1) (Nat.lt_of_le_of_lt (Nat.sub_le _ _) t.isLt)).2.2
      (fun h => h0 ((hcond0_0 t).mp h))

end Cert.KernelIdeal.Carry

end
-- ==== Proof.Blocks.lean ====
/-
  The windows' blocks as entries of the arrays.

  The three resident windows (the node features, the weights, the bias row) always sit at block (0, 0) and their
  block is the whole array; the adjacency window and both output windows move down the rows with the grid point:
  at point `t` their block is rows `200·t … 200·t + 199`. The bias row the region finds is the host's reshape of the
  bias vector `[128] → [1,128]`, so its entry `(0, q)` is the vector's entry `q`.
-/
import proofs.«111842_g5643587026968_cont_9to1_m_404_6_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The printed index maps, decided once over the 50 grid points: the resident windows stay at block (0, 0); the
    adjacency window and the two output windows are at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The node-feature window's block is the whole array. -/
theorem x_blk (c : Dev nD) (t : Fin cfg0.N) (y : S10000x128.Idx) :
    (iblk m c 0 t : Vec F S10000x128 .f32) y = V m c main_arg0 y := by
  obtain ⟨e0, e1, -⟩ := idx_facts t
  unfold iblk
  rw [View.read_apply]
  show V m c main_arg0 _ = V m c main_arg0 y
  refine congrArg (V m c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weight window's block is the whole array. -/
theorem w_blk (c : Dev nD) (t : Fin cfg0.N) (y : S128x128.Idx) :
    (iblk m c 1 t : Vec F S128x128 .f32) y = V m c main_arg2 y := by
  obtain ⟨-, -, e0, e1, -⟩ := idx_facts t
  unfold iblk
  rw [View.read_apply]
  show V m c main_arg2 _ = V m c main_arg2 y
  refine congrArg (V m c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias-row window's block is the whole row. -/
theorem b_blk (c : Dev nD) (t : Fin cfg0.N) (y : S1x128.Idx) :
    (iblk m c 2 t : Vec F S1x128 .f32) y = V m c main_v0 y := by
  obtain ⟨-, -, -, -, e0, e1, -⟩ := idx_facts t
  unfold iblk
  rw [View.read_apply]
  show V m c main_v0 _ = V m c main_v0 y
  refine congrArg (V m c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The adjacency window's block at point `t` is rows `200·t …` of the array. -/
theorem adj_blk (c : Dev nD) (t : Fin cfg0.N) (y : S200x10000.Idx) (k : S10000x10000.Idx)
    (hk0 : (k 0).val = 200 * t.val + (y 0).val) (hk1 : (k 1).val = (y 1).val) :
    (iblk m c 3 t : Vec F S200x10000 .f32) y = V m c main_arg1 k := by
  obtain ⟨-, -, -, -, -, -, e0, e1, -⟩ := idx_facts t
  unfold iblk
  rw [View.read_apply]
  show V m c main_arg1 _ = V m c main_arg1 k
  refine congrArg (V m c main_arg1) (funext fun a => Fin.ext ?_)
  match a with
  | ⟨0, _⟩ => show win0_3.index t (0 : Fin 2) * 200 + 1 * (y 0).val = (k 0).val; rw [e0, hk0]; omega
  | ⟨1, _⟩ => show win0_3.index t (1 : Fin 2) * 10000 + 1 * (y 1).val = (k 1).val; rw [e1, hk1]; omega

/-- The bias row as the region finds it: the host's reshape of the bias vector. -/
theorem bias_row (c : Dev nD) :
    (V m c main_v0 : S1x128.Idx → Elt F .f32)
      = shapeCast S1x128 (m ((c : Thread nD τ).loc main_arg3)) shapeCasts_S128_S1x128 := by
  dsimp only [Gen.V, Gen.hostOps0]
  after_results
  rfl

/-- Its entry `(0, q)` is the bias vector's entry `q`. -/
theorem bias_at (c : Dev nD) (q : Fin 128) :
    (V m c main_v0 : S1x128.Idx → Elt F .f32) (ix2 (0 : Fin 1) q) = m ((c : Thread nD τ).loc main_arg3) (ix1 q) := by
  rw [bias_row]
  exact shapeCast_a_1a_apply _ shapeCasts_S128_S1x128 (0 : Fin 1) q

end Cert.KernelIdeal.Blocks

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Payload.lean ====
/-
  The two values the kernel's body stores, read at an entry, at the ideal instance.

  The first store (made at the grid's first point only) fills the carried scratch with the hidden features: the
  product of the [10000,128] block of `x` with the [128,128] block of `W` contracting BOTH last axes, plus the
  [1,128] bias row repeated down the rows, then narrowed to bf16 — which over the extended reals changes nothing.
  The second store (at every point) is the [200,10000] block of adjacency rows, narrowed likewise, times the scratch,
  contracting the block's columns with the scratch's rows, rectified against the zero word.
-/
import proofs.«111842_g5643587026968_cont_9to1_m_404_6_alg».proof.Proof.Gen.KernelIdeal.Skeleton
import proofs.«111842_g5643587026968_cont_9to1_m_404_6_alg».proof.Proof.LibMatmulRows
import proofs.«111842_g5643587026968_cont_9to1_m_404_6_alg».proof.Proof.LibMatmulAt
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The dimension numbers of the hidden features' product: [10000,128] by [128,128], last axis against last axis. -/
abbrev dotH : DotDims S10000x128 S128x128 S10000x128 := dot_S10000x128_S128x128_S10000x128_1_1_0_0_n_n
/-- The dimension numbers of the aggregation: [200,10000] by [10000,128], columns against rows. -/
abbrev dotA : DotDims S200x10000 S10000x128 S200x128 := dot_S200x10000_S10000x128_S200x128_1_0_0_1_n_n

/-! ## Where the two operand indices of each product sit -/

theorem dotH_l0 (i : S10000x128.Idx) (q : dotH.contr.Idx) : (dotH.lhsIdx i q (0 : Fin 2)).val = (i (0 : Fin 2)).val := by
  unfold DotDims.lhsIdx
  rw [dif_neg (show ¬(0 : Fin S10000x128.rank) ∈ dotH.lhsBatch by decide), dif_pos (show (0 : Fin S10000x128.rank) ∈ dotH.lhsNonContracting by decide)]
  rfl
theorem dotH_l1 (i : S10000x128.Idx) (q : dotH.contr.Idx) : (dotH.lhsIdx i q (1 : Fin 2)).val = (q ⟨0, by decide⟩).val :=
  dotH.lhsIdx_val_of_single rfl i q
theorem dotH_r0 (i : S10000x128.Idx) (q : dotH.contr.Idx) : (dotH.rhsIdx i q (0 : Fin 2)).val = (i (1 : Fin 2)).val := by
  unfold DotDims.rhsIdx
  rw [dif_neg (show ¬(0 : Fin S128x128.rank) ∈ dotH.rhsBatch by decide), dif_pos (show (0 : Fin S128x128.rank) ∈ dotH.rhsNonContracting by decide)]
  rfl
theorem dotH_r1 (i : S10000x128.Idx) (q : dotH.contr.Idx) : (dotH.rhsIdx i q (1 : Fin 2)).val = (q ⟨0, by decide⟩).val :=
  dotH.rhsIdx_val_of_single rfl i q

theorem dotA_l0 (i : S200x128.Idx) (q : dotA.contr.Idx) : (dotA.lhsIdx i q (0 : Fin 2)).val = (i (0 : Fin 2)).val := by
  unfold DotDims.lhsIdx
  rw [dif_neg (show ¬(0 : Fin S200x10000.rank) ∈ dotA.lhsBatch by decide), dif_pos (show (0 : Fin S200x10000.rank) ∈ dotA.lhsNonContracting by decide)]
  rfl
theorem dotA_l1 (i : S200x128.Idx) (q : dotA.contr.Idx) : (dotA.lhsIdx i q (1 : Fin 2)).val = (q ⟨0, by decide⟩).val :=
  dotA.lhsIdx_val_of_single rfl i q
theorem dotA_r0 (i : S200x128.Idx) (q : dotA.contr.Idx) : (dotA.rhsIdx i q (0 : Fin 2)).val = (q ⟨0, by decide⟩).val :=
  dotA.rhsIdx_val_of_single rfl i q
theorem dotA_r1 (i : S200x128.Idx) (q : dotA.contr.Idx) : (dotA.rhsIdx i q (1 : Fin 2)).val = (i (1 : Fin 2)).val := by
  unfold DotDims.rhsIdx
  rw [dif_neg (show ¬(1 : Fin S10000x128.rank) ∈ dotA.rhsBatch by decide), dif_pos (show (1 : Fin S10000x128.rank) ∈ dotA.rhsNonContracting by decide)]
  rfl

/-! ## The stored values at an entry -/

/-- The scratch's entry `(k, c)`: row `k` of the first block against row `c` of the second, plus the bias row's entry `c`. -/
theorem hidden_at (x0 : FVec Ideal S10000x128 .f32) (x1 : FVec Ideal S128x128 .f32) (x2 : FVec Ideal S1x128 .f32)
    (k : Fin 10000) (c : Fin 128) :
    k0_pay1 (F := Ideal) x0 x1 x2 (ix2 k c) = (∑ j : Fin 128, x0 (ix2 k j) * x1 (ix2 c j)) + x2 (ix2 (0 : Fin 1) c) := by
  unfold k0_pay1
  rw [shapeCast_self]
  show matmul dotH none x0 x1 (constant S10000x128 .f32 0x00000000#32) (ix2 k c)
      + broadcastTo S10000x128 (shapeCast S1x128 x2 shapeCasts_S1x128_S1x128) broadcasts_S1x128_S10000x128 (ix2 k c) = _
  rw [MatmulRows.matmul_zero_rows dotH rfl rfl dotH_l0 dotH_l1 dotH_r0 dotH_r1, broadcastTo_1b_ab_apply, shapeCast_self]

/-- The output block's entry `(p, c)`: row `p` of the adjacency block against column `c` of the scratch, rectified. -/
theorem out_at (x3 : FVec Ideal S200x10000 .f32) (h : FVec Ideal S10000x128 .bf16) (p : Fin 200) (c : Fin 128) :
    k0_pay2 (F := Ideal) x3 h (ix2 p c)
      = max (∑ k : Fin 10000, x3 (ix2 p k) * h (ix2 k c)) (Ideal.ofBits .f32 0x00000000#32) := by
  unfold k0_pay2
  show max (matmul dotA none (truncf .bf16 x3 bitsLt_bf16_f32) h (constant S200x128 .f32 0x00000000#32) (ix2 p c))
      (Ideal.ofBits .f32 0x00000000#32) = _
  rw [MatmulAt.matmul_zero_ix2 dotA rfl rfl dotA_l0 dotA_l1 dotA_r0 dotA_r1]
  rfl

end Cert.KernelIdeal.Pay

end
-- ==== Proof.Spec.lean ====
/-
  The graph-convolution layer as ONE function of its four argument arrays, index by index, over the
  extended reals.

  The hidden features are the affine map of a node's input features,
      hidden (k, c) = (∑ j, x (k, j) · W (c, j)) + b c          (x · Wᵀ + b, the transpose never formed),
  and a node's output is the rectified sum of every node's hidden features weighted by its row of the
  adjacency matrix,
      out (r, c) = max (∑ k, adj (r, k) · hidden (k, c)) 0.
  The zero of the rectifier is kept as the word both programs print for it.
-/
import Idealize.ShloMosaic.PureOps.Ideal
import Idealize.ShloMosaic.Lib.ValueIdx

noncomputable section

open scoped BigOperators

namespace Cert.Gcn

open Idealize.ShloMosaic Idealize.ShloMosaic.ValueIdx

/-- The hidden feature `c` of node `k`: row `k` of `x` against row `c` of `W`, plus the bias. -/
def hidden (x : FVec Ideal ⟨2, ![10000, 128]⟩ .f32) (W : FVec Ideal ⟨2, ![128, 128]⟩ .f32)
    (b : FVec Ideal ⟨1, ![128]⟩ .f32) (k : Fin 10000) (c : Fin 128) : EReal :=
  (∑ j : Fin 128, x (ix2 k j) * W (ix2 c j)) + b (ix1 c)

/-- The layer's output: row `r` of the adjacency matrix against column `c` of the hidden features, rectified. -/
def out (x : FVec Ideal ⟨2, ![10000, 128]⟩ .f32) (adj : FVec Ideal ⟨2, ![10000, 10000]⟩ .f32)
    (W : FVec Ideal ⟨2, ![128, 128]⟩ .f32) (b : FVec Ideal ⟨1, ![128]⟩ .f32) :
    FVec Ideal ⟨2, ![10000, 128]⟩ .f32 := fun i =>
  max (∑ k : Fin 10000, adj (ix2 (i 0) k) * hidden x W b k (i 1)) (Ideal.ofBits .f32 0x00000000#32)

/-- The output at coordinates. -/
theorem out_ix2 (x : FVec Ideal ⟨2, ![10000, 128]⟩ .f32) (adj : FVec Ideal ⟨2, ![10000, 10000]⟩ .f32)
    (W : FVec Ideal ⟨2, ![128, 128]⟩ .f32) (b : FVec Ideal ⟨1, ![128]⟩ .f32) (r : Fin 10000) (c : Fin 128) :
    out x adj W b (ix2 r c)
      = max (∑ k : Fin 10000, adj (ix2 r k) * hidden x W b k c) (Ideal.ofBits .f32 0x00000000#32) := rfl

end Cert.Gcn

end
-- ==== Proof.Layer.lean ====
/-
  The kernel's two result arrays as functions of its argument arrays.

  At grid point `t` the first output's block is rows `200·t … 200·t + 199` of the layer's output: its entry (p, q)
  pairs row p of the point's adjacency block — row `200·t + p` of the adjacency matrix — with column q of the hidden
  features the scratch carries, and those are the specification's hidden features of the node features, the weights
  and the bias (each resident block is its whole array; the bias row is the reshaped bias vector). The second
  output's block is the point's adjacency block, rows `200·t …` of the adjacency matrix. The 50 blocks of 200 rows
  tile the 10000 rows: row r lies in the block of point `r / 200`. So after the run the first result array is the
  layer's output and the second is the adjacency matrix.
-/
import proofs.«111842_g5643587026968_cont_9to1_m_404_6_alg».proof.Proof.Gen.KernelIdeal.Value
import proofs.«111842_g5643587026968_cont_9to1_m_404_6_alg».proof.Proof.Carry
import proofs.«111842_g5643587026968_cont_9to1_m_404_6_alg».proof.Proof.Blocks
import proofs.«111842_g5643587026968_cont_9to1_m_404_6_alg».proof.Proof.Payload
import proofs.«111842_g5643587026968_cont_9to1_m_404_6_alg».proof.Proof.Spec

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's output of the launch contents of the four arguments. -/
abbrev result (c : Dev nD) : S10000x128.Idx → Elt Ideal .f32 :=
  Cert.Gcn.out (m ((c : Thread nD τ).loc main_arg0)) (m ((c : Thread nD τ).loc main_arg1))
    (m ((c : Thread nD τ).loc main_arg2)) (m ((c : Thread nD τ).loc main_arg3))

/-! ## The first output -/

/-- The scratch's entry (k, q) is the specification's hidden feature q of node k. -/
theorem hid_at (c : Dev nD) (k : Fin 10000) (q : Fin 128) :
    Carry.hid m c (ix2 k q)
      = Cert.Gcn.hidden (m ((c : Thread nD τ).loc main_arg0)) (m ((c : Thread nD τ).loc main_arg2))
          (m ((c : Thread nD τ).loc main_arg3)) k q := by
  unfold Carry.hid
  refine (Pay.hidden_at (iblk m c 0 Carry.first) (iblk m c 1 Carry.first) (iblk m c 2 Carry.first) k q).trans ?_
  unfold Cert.Gcn.hidden
  refine congrArg₂ (· + ·) (Finset.sum_congr rfl fun j _ => ?_) ?_
  · rw [Blocks.x_blk m c Carry.first (ix2 k j), Blocks.w_blk m c Carry.first (ix2 q j), V_main_arg0, V_main_arg2]
  · rw [Blocks.b_blk m c Carry.first (ix2 (0 : Fin 1) q), Blocks.bias_at]

/-- Entry (p, q) of the block point `t` stores is entry (200·t + p, q) of the layer's output. -/
theorem out_entry (c : Dev nD) (t : Fin cfg0.N) (p : Fin 200) (q : Fin 128) (r : Fin 10000)
    (hr : r.val = 200 * t.val + p.val) :
    k0_pay2 (F := Ideal) (iblk m c 3 t) (Carry.hid m c) (ix2 p q) = result m c (ix2 r q) := by
  refine (Pay.out_at (iblk m c 3 t) (Carry.hid m c) p q).trans ?_
  refine Eq.trans ?_ (Cert.Gcn.out_ix2 _ _ _ _ r q).symm
  refine congrArg₂ max (Finset.sum_congr rfl fun k _ => ?_) rfl
  rw [Blocks.adj_blk m c t (ix2 p k) (ix2 r k) hr rfl, hid_at, V_main_arg1]

/-- The same, over any index of the block and the index of the array it lands on. -/
theorem out_block (c : Dev nD) (t : Fin cfg0.N) (y : S200x128.Idx) (i : S10000x128.Idx)
    (h0 : (i 0).val = 200 * t.val + (y 0).val) (h1 : (i 1).val = (y 1).val) :
    k0_pay2 (F := Ideal) (iblk m c 3 t) (Carry.hid m c) y = result m c i := by
  obtain ⟨p, q, rfl⟩ : ∃ (p : Fin 200) (q : Fin 128), y = ix2 p q := ⟨y 0, y 1, eq_ix2 y⟩
  obtain ⟨r, q', rfl⟩ : ∃ (r : Fin 10000) (q' : Fin 128), i = ix2 r q' := ⟨i 0, i 1, eq_ix2 i⟩
  obtain rfl : q' = q := Fin.ext h1
  exact out_entry m c t p q' r h0

/-- What point `t` writes back to the first result array is block `t` of the layer's output. -/
theorem flushed4_eq (c : Dev nD) (t : Fin cfg0.N) :
    (dats m 0 c).flushed 4 t = ((cfg0.win 4).blk t).view.read (Elt Ideal) (result m c) := by
  obtain ⟨-, -, -, -, -, -, -, -, e0, e1, -⟩ := Blocks.idx_facts t
  rw [Value.flushed4, Carry.out_eq]
  funext j
  show k0_pay2 (F := Ideal) (iblk m c 3 t) (Carry.hid m c) j = result m c (((cfg0.win 4).blk t).view.emb j)
  refine out_block m c t j _ ?_ ?_
  · show win0_4.index t (0 : Fin 2) * 200 + 1 * (j 0).val = 200 * t.val + (j 0).val
    rw [e0]; omega
  · show win0_4.index t (1 : Fin 2) * 128 + 1 * (j 1).val = (j 1).val
    rw [e1]; omega

/-- An index of the first result array is in point `t`'s block iff each coordinate is in the block's range. -/
theorem mem_blk4 (t : Fin cfg0.N) (i : S10000x128.Idx) :
    i ∈ ((cfg0.win 4).blk t).view.set ↔ ∀ a : Fin 2, win0_4.index t a * S200x128.size a ≤ (i a).val
      ∧ (i a).val < win0_4.index t a * S200x128.size a + S200x128.size a := by
  show i ∈ ((View.whole main_v1_0).slice (win0_4.rect t)).set ↔ _
  rw [View.set_slice_whole, Rect.mem_set_unit]
  exact Iff.rfl

/-- Every row lies in the block of the point `row / 200`. -/
theorem cover4 (i : S10000x128.Idx) :
    ∃ t : Fin cfg0.N, (cfg0.win 4).flush t = true ∧ i ∈ ((cfg0.win 4).blk t).view.set := by
  have hN : cfg0.N = 50 := N_0
  have hi0 : (i 0).val < 10000 := (i 0).isLt
  have hi1 : (i 1).val < 128 := (i 1).isLt
  obtain ⟨t, ht⟩ : ∃ t : Fin cfg0.N, t.val = (i 0).val / 200 := ⟨⟨(i 0).val / 200, by rw [hN]; omega⟩, rfl⟩
  obtain ⟨-, -, -, -, -, -, -, -, e0, e1, -⟩ := Blocks.idx_facts t
  refine ⟨t, flush0_4 t, ?_⟩
  rw [mem_blk4]
  intro a
  match a with
  | ⟨0, _⟩ =>
    show win0_4.index t (0 : Fin 2) * 200 ≤ (i 0).val ∧ (i 0).val < win0_4.index t (0 : Fin 2) * 200 + 200
    rw [e0, ht]; omega
  | ⟨1, _⟩ =>
    show win0_4.index t (1 : Fin 2) * 128 ≤ (i 1).val ∧ (i 1).val < win0_4.index t (1 : Fin 2) * 128 + 128
    rw [e1]; omega

/-- After the run the first result array is the layer's output. -/
theorem final4 (c : Dev nD) : (dats m 0 c).arrAt 4 cfg0.N = result m c :=
  (dats m 0 c).arrAt_eq_of_cover 4 (result m c) (fun t _ => flushed4_eq m c t) cover4

/-! ## The second output -/

/-- What point `t` writes back to the second result array is block `t` of the adjacency matrix. -/
theorem flushed5_eq (c : Dev nD) (t : Fin cfg0.N) :
    (dats m 0 c).flushed 5 t = ((cfg0.win 5).blk t).view.read (Elt Ideal) (m ((c : Thread nD τ).loc main_arg1)) := by
  obtain ⟨-, -, -, -, -, -, -, -, -, -, e0, e1⟩ := Blocks.idx_facts t
  rw [Value.flushed5, Carry.copy_eq]
  funext j
  show iblk m c 3 t j = (m ((c : Thread nD τ).loc main_arg1)) (((cfg0.win 5).blk t).view.emb j)
  refine (Blocks.adj_blk m c t j (((cfg0.win 5).blk t).view.emb j) ?_ ?_).trans (congrFun (V_main_arg1 m c) _)
  · show win0_5.index t (0 : Fin 2) * 200 + 1 * (j 0).val = 200 * t.val + (j 0).val
    rw [e0]; omega
  · show win0_5.index t (1 : Fin 2) * 10000 + 1 * (j 1).val = (j 1).val
    rw [e1]; omega

/-- An index of the second result array is in point `t`'s block iff each coordinate is in the block's range. -/
theorem mem_blk5 (t : Fin cfg0.N) (i : S10000x10000.Idx) :
    i ∈ ((cfg0.win 5).blk t).view.set ↔ ∀ a : Fin 2, win0_5.index t a * S200x10000.size a ≤ (i a).val
      ∧ (i a).val < win0_5.index t a * S200x10000.size a + S200x10000.size a := by
  show i ∈ ((View.whole main_v1_1).slice (win0_5.rect t)).set ↔ _
  rw [View.set_slice_whole, Rect.mem_set_unit]
  exact Iff.rfl

/-- Every row lies in the block of the point `row / 200`. -/
theorem cover5 (i : S10000x10000.Idx) :
    ∃ t : Fin cfg0.N, (cfg0.win 5).flush t = true ∧ i ∈ ((cfg0.win 5).blk t).view.set := by
  have hN : cfg0.N = 50 := N_0
  have hi0 : (i 0).val < 10000 := (i 0).isLt
  have hi1 : (i 1).val < 10000 := (i 1).isLt
  obtain ⟨t, ht⟩ : ∃ t : Fin cfg0.N, t.val = (i 0).val / 200 := ⟨⟨(i 0).val / 200, by rw [hN]; omega⟩, rfl⟩
  obtain ⟨-, -, -, -, -, -, -, -, -, -, e0, e1⟩ := Blocks.idx_facts t
  refine ⟨t, flush0_5 t, ?_⟩
  rw [mem_blk5]
  intro a
  match a with
  | ⟨0, _⟩ =>
    show win0_5.index t (0 : Fin 2) * 200 ≤ (i 0).val ∧ (i 0).val < win0_5.index t (0 : Fin 2) * 200 + 200
    rw [e0, ht]; omega
  | ⟨1, _⟩ =>
    show win0_5.index t (1 : Fin 2) * 10000 ≤ (i 1).val ∧ (i 1).val < win0_5.index t (1 : Fin 2) * 10000 + 10000
    rw [e1]; omega

/-- After the run the second result array is the adjacency matrix. -/
theorem final5 (c : Dev nD) : (dats m 0 c).arrAt 5 cfg0.N = (m ((c : Thread nD τ).loc main_arg1)) :=
  (dats m 0 c).arrAt_eq_of_cover 5 (m ((c : Thread nD τ).loc main_arg1)) (fun t _ => flushed5_eq m c t) cover5

/-! ## The run, read -/

/-- Every weakly fair execution of the kernel's program terminates with the first result array at the layer's output,
    the second at the adjacency matrix, and the four arguments unchanged. -/
theorem run : θ_run defs (onTc (τ := τ) (main (F := Ideal))) ⟨m, fun _ => 0, ρ⟩ fun r => ∀ c : Dev nD,
      r.2.mem ((c : Thread nD τ).loc main_v1_0) = result m c
      ∧ r.2.mem ((c : Thread nD τ).loc main_v1_1) = (m ((c : Thread nD τ).loc main_arg1))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun r h c => ⟨(h c).1.trans (final4 m c), (h c).2.1.trans (final5 m c), (h c).2.2⟩)
    (Value.run_blocks m ρ)

end Cert.KernelIdeal.Layer

end
-- ==== Proof.RefValue.lean ====
/-
  The reference computes the specification.

  Its program transposes the weights, multiplies the node features by the transpose (so entry (k, c) pairs row k of
  the features with row c of the weights), adds the bias broadcast along the rows, multiplies the adjacency matrix by
  the result, and takes the maximum with a zero broadcast to every entry. Read one operation at a time at an entry
  (r, c) that is the specification's formula, with no algebra: the two sums are already written over the same index.
-/
import proofs.«111842_g5643587026968_cont_9to1_m_404_6_alg».proof.Proof.Gen.ReferenceIdeal.Read
import proofs.«111842_g5643587026968_cont_9to1_m_404_6_alg».proof.Proof.Spec

noncomputable section

open scoped BigOperators

namespace Cert.ReferenceIdeal.RefValue

open Cert.ReferenceIdeal Cert.ReferenceIdeal.Read Idealize.ShloMosaic Idealize.ShloMosaic.ValueIdx

/-- The hidden features as the reference computes them, at an entry. -/
theorem hidden_at (x0 : FVec Ideal S10000x128 .f32) (x2 : FVec Ideal S128x128 .f32) (x3 : FVec Ideal S128 .f32)
    (k : Fin 10000) (c : Fin 128) :
    val_main_v4 (F := Ideal) x0 x2 x3 (ix2 k c) = Cert.Gcn.hidden x0 x2 x3 k c := by
  rw [val_main_v4_apply, val_main_v1_apply, val_main_v3_apply, val_main_v2_apply]
  unfold Cert.Gcn.hidden
  refine congrArg₂ (· + ·) (Finset.sum_congr rfl fun j _ => ?_) (congrArg x3 ?_)
  · rw [val_main_v0_apply]
    have el : lidx_main_v1 (ix2 k c) j = ix2 k j := funext fun a => Fin.ext (by
      match a with
      | ⟨0, _⟩ => rfl
      | ⟨1, _⟩ => rfl)
    have er : idx_main_v0 (ridx_main_v1 (ix2 k c) j) = ix2 c j := funext fun a => Fin.ext (by
      match a with
      | ⟨0, _⟩ => rfl
      | ⟨1, _⟩ => rfl)
    rw [el, er]
  · exact funext fun a => Fin.ext (by
      match a with
      | ⟨0, _⟩ => rfl)

/-- The reference's result is the specification's output, entry by entry. -/
theorem result_eq (x0 : FVec Ideal S10000x128 .f32) (x1 : FVec Ideal S10000x10000 .f32) (x2 : FVec Ideal S128x128 .f32)
    (x3 : FVec Ideal S128 .f32) :
    val_main_v6 (F := Ideal) x0 x1 x2 x3 = Cert.Gcn.out x0 x1 x2 x3 := by
  funext i
  obtain ⟨r, c, rfl⟩ : ∃ (r : Fin 10000) (c : Fin 128), i = ix2 r c := ⟨i 0, i 1, eq_ix2 i⟩
  rw [val_main_v6_apply, val_main_v5_apply, val_main_call0_v0_apply, val_main_call0_cst_apply, Cert.Gcn.out_ix2]
  refine congrArg₂ max (Finset.sum_congr rfl fun k _ => ?_) rfl
  have el : lidx_main_v5 (ix2 r c) k = ix2 r k := funext fun a => Fin.ext (by
    match a with
    | ⟨0, _⟩ => rfl
    | ⟨1, _⟩ => rfl)
  have er : ridx_main_v5 (ix2 r c) k = ix2 k c := funext fun a => Fin.ext (by
    match a with
    | ⟨0, _⟩ => rfl
    | ⟨1, _⟩ => rfl)
  rw [el, er, hidden_at]

end Cert.ReferenceIdeal.RefValue

end
-- ==== Proof.lean ====
/-
  A graph-convolution layer, out = relu (adj · (x · Wᵀ + b)), returned together with its adjacency matrix: a Pallas
  kernel against its jnp reference, equal over the extended reals.

  The kernel walks the adjacency matrix in 50 blocks of 200 rows. At the first block it computes the hidden features
  x · Wᵀ + b once (the product contracts the two operands' last axes, so the transpose is never formed) and keeps
  them, narrowed to bf16, in a scratch buffer that it carries across the grid; at every block it multiplies the
  block's rows, narrowed likewise, by the scratch, rectifies, and writes the 200 output rows; it also copies the
  block to a second output. The reference transposes W, forms x · Wᵀ + b, multiplies by the whole adjacency matrix,
  rectifies, and returns the adjacency matrix itself.

  Over the extended reals narrowing to bf16 changes nothing, a matrix product into a zero accumulator is the plain sum
  of products, and both programs write entry (r, c) of the output as
      max (∑ k, adj (r, k) · ((∑ j, x (k, j) · W (c, j)) + b c)) 0
  over the same index sets in the same arrangement: no algebraic law is needed, and the inputs' finiteness is never
  used. What has to be shown is where the numbers come from: that the scratch still holds the first point's hidden
  features at every later point (an induction over the grid points), that each point's blocks are the stated rows of
  the arrays, and that the 50 row blocks tile the 10000 rows (Layer); and that the reference's operations, read one
  at a time at an entry, give the same formula (RefValue). The ideal pass rewrote nothing, so the kernel's
  idealization is its own text; the three frames are the generated ones, the reference's being its generated run
  with the results dropped.
-/
import proofs.«111842_g5643587026968_cont_9to1_m_404_6_alg».proof.Defs
import proofs.«111842_g5643587026968_cont_9to1_m_404_6_alg».proof.Proof.Gen.Kernel
import proofs.«111842_g5643587026968_cont_9to1_m_404_6_alg».proof.Proof.Gen.Kernel.Skeleton
import proofs.«111842_g5643587026968_cont_9to1_m_404_6_alg».proof.Proof.Gen.Kernel.Launch
import proofs.«111842_g5643587026968_cont_9to1_m_404_6_alg».proof.Proof.Gen.Kernel.Points
import proofs.«111842_g5643587026968_cont_9to1_m_404_6_alg».proof.Proof.Gen.Kernel.Frame
import proofs.«111842_g5643587026968_cont_9to1_m_404_6_alg».proof.Proof.Gen.KernelIdeal
import proofs.«111842_g5643587026968_cont_9to1_m_404_6_alg».proof.Proof.Gen.KernelIdeal.Skeleton
import proofs.«111842_g5643587026968_cont_9to1_m_404_6_alg».proof.Proof.Gen.KernelIdeal.Launch
import proofs.«111842_g5643587026968_cont_9to1_m_404_6_alg».proof.Proof.Gen.KernelIdeal.Points
import proofs.«111842_g5643587026968_cont_9to1_m_404_6_alg».proof.Proof.Gen.KernelIdeal.Frame
import proofs.«111842_g5643587026968_cont_9to1_m_404_6_alg».proof.Proof.Gen.ReferenceIdeal
import proofs.«111842_g5643587026968_cont_9to1_m_404_6_alg».proof.Proof.Gen.Pre_finite_inputs
import proofs.«111842_g5643587026968_cont_9to1_m_404_6_alg».proof.Proof.Gen.KernelIdeal.Value
import proofs.«111842_g5643587026968_cont_9to1_m_404_6_alg».proof.Proof.Gen.ReferenceIdeal.Run
import proofs.«111842_g5643587026968_cont_9to1_m_404_6_alg».proof.Proof.Gen.ReferenceIdeal.Read
import proofs.«111842_g5643587026968_cont_9to1_m_404_6_alg».proof.Proof.Layer
import proofs.«111842_g5643587026968_cont_9to1_m_404_6_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the four arguments both programs end with the layer's output of those arguments in
    the first result and the adjacency matrix in the second. -/
theorem algebraic : Cert.algebraic_KernelIdeal_ReferenceIdeal := by
  intro m ρ m' ρ' _ hagree
  refine ⟨fun c => Cert.KernelIdeal.Layer.result m c,
    fun c => m ((c.tc : Thread Cert.KernelIdeal.nD Cert.KernelIdeal.τ).loc Cert.KernelIdeal.main_arg1),
    Cert.KernelIdeal.Layer.run m ρ, ?_⟩
  refine (θ_run Cert.ReferenceIdeal.defs _ _).mono
    (fun _ h c => ⟨(h c).1.trans ?_, (h c).2.1.trans (hagree c).2.1, (h c).2.2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
